-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S32x2 .f32) (main_arg9 : FVec F S2 .f32) (main_v33 : IVec S_ 1) : IVec S_ 1 :=
  let main_v34 : FVec F S32x2 .f32 := Host.absf main_arg8
  let main_cst_12 : FVec F S_ .f32 := constant S_ .f32 0x7F800000#32
  let main_v35 : FVec F S32x2 .f32 := broadcastInDim S32x2 ![] bcast_S_S32x2 main_cst_12
  let main_v36 : IVec S32x2 1 := cmpf .olt main_v34 main_v35
  let main_c_13 : IVec S_ 1 := constantI S_ 1 1#1
  let main_v37 : IVec S_ 1 := (fun x v => Host.reduce IntOp.andi x v reducesTo_S32x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S64x32 .f32) (main_arg6 : FVec F S32 .f32) (main_arg7 : FVec F S64x32 .f32) (main_arg8 : FVec F S32x2 .f32) (main_arg9 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x32 .f32) (main_arg6 : FVec F S32 .f32) (main_arg7 : FVec F S64x32 .f32) (main_arg8 : FVec F S32x2 .f32) (main_arg9 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S10000x64 : Shape := ⟨2, ![10000, 64]⟩
abbrev S1x64 : Shape := ⟨2, ![1, 64]⟩
abbrev S100000x32 : Shape := ⟨2, ![100000, 32]⟩
abbrev S10000x32 : Shape := ⟨2, ![10000, 32]⟩
abbrev S1x32 : Shape := ⟨2, ![1, 32]⟩
abbrev S100000x2 : Shape := ⟨2, ![100000, 2]⟩
abbrev S10000x2 : Shape := ⟨2, ![10000, 2]⟩
abbrev S1x2 : Shape := ⟨2, ![1, 2]⟩

abbrev nBuf : Space → Nat
  | .hbm => 73
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S32x2, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .f32⟩
  | .hbm, ⟨35, _⟩ => ⟨S_, .f32⟩
  | .hbm, ⟨36, _⟩ => ⟨S100000x64, .f32⟩
  | .hbm, ⟨37, _⟩ => ⟨S1600000x1, .i32⟩
  | .hbm, ⟨38, _⟩ => ⟨S100000x64, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S1600000, .f32⟩
  | .hbm, ⟨45, _⟩ => ⟨S_, .f32⟩
  | .hbm, ⟨46, _⟩ => ⟨S100000, .f32⟩
  | .hbm, ⟨47, _⟩ => ⟨S1600000x1, .i32⟩
  | .hbm, ⟨48, _⟩ => ⟨S100000, .f32⟩
  | .hbm, ⟨49, _⟩ => ⟨S_, .f32⟩
  | .hbm, ⟨50, _⟩ => ⟨S100000, .f32⟩
  | .hbm, ⟨51, _⟩ => ⟨S100000, .f32⟩
  | .hbm, ⟨52, _⟩ => ⟨S_, .f32⟩
  | .hbm, ⟨53, _⟩ => ⟨S100000, .f32⟩
  | .hbm, ⟨54, _⟩ => ⟨S100000, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x64, .f32⟩
  | .hbm, ⟨64, _⟩ => ⟨S_, .f32⟩
  | .hbm, ⟨65, _⟩ => ⟨S100000x64, .f32⟩
  | .hbm, ⟨66, _⟩ => ⟨S1600000x1, .i32⟩
  | .hbm, ⟨67, _⟩ => ⟨S100000x64, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x32, .f32⟩
  | .hbm, ⟨72, _⟩ => ⟨S100000x2, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x32, .f32⟩
  | .local _ .vmem, ⟨14, _⟩ => ⟨S32, .f32⟩
  | .local _ .vmem, ⟨15, _⟩ => ⟨S64x32, .f32⟩
  | .local _ .vmem, ⟨16, _⟩ => ⟨S10000x32, .f32⟩
  | .local _ .vmem, ⟨17, _⟩ => ⟨S10000x32, .f32⟩
  | .local _ .vmem, ⟨18, _⟩ => ⟨S10000x32, .f32⟩
  | .local _ .vmem, ⟨19, _⟩ => ⟨S10000x32, .f32⟩
  | .local _ .vmem, ⟨20, _⟩ => ⟨S32x2, .f32⟩
  | .local _ .vmem, ⟨21, _⟩ => ⟨S2, .f32⟩
  | .local _ .vmem, ⟨22, _⟩ => ⟨S10000x2, .f32⟩
  | .local _ .vmem, ⟨23, _⟩ => ⟨S10000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_cst_8 : Ref sig .tc := ⟨.hbm, 52, rfl⟩
abbrev main_v32 : Ref sig .tc := ⟨.hbm, 53, rfl⟩
abbrev main_v33 : Ref sig .tc := ⟨.hbm, 54, rfl⟩
abbrev main_c_9 : Ref sig .tc := ⟨.hbm, 55, rfl⟩
abbrev main_v34 : Ref sig .tc := ⟨.hbm, 56, rfl⟩
abbrev main_v35 : Ref sig .tc := ⟨.hbm, 57, rfl⟩
abbrev main_c_10 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_11 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S32x2_S32x2_0_0 : ∀ a, (![0, 0] : Fin 2 → Nat) a + S32x2.size a ≤ S32x2.size a
  h_S32x2 : 0 < S32x2.numel
  inb_S2_S2_0 : ∀ a, (![0] : Fin 1 → Nat) a + S2.size a ≤ S2.size a
  h_S2 : 0 < S2.numel
  shapeCasts_S2_S1x2 : S2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  dot_S10000x32_S32x2_S10000x2_1_0_0_1_n_n_wf : DotDims.WF S10000x32 S32x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S100000x32.size a
  hwx1_5 : ∀ i : grid1.Coords, EltTy.bits .f32 = 32 ∨ (Rect.block (s := S100000x32) S10000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x2.size a ≤ S32x2.size a
  hwx2_1 : ∀ i : grid2.Coords, EltTy.bits .f32 = 32 ∨ (Rect.block (s := S32x2) S32x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2.size a ≤ S2.size a
  hwx2_2 : ∀ i : grid2.Coords, EltTy.bits .f32 = 32 ∨ (Rect.block (s := S2) S2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x2.size a ≤ S100000x2.size a
  hwx2_3 : ∀ i : grid2.Coords, EltTy.bits .f32 = 32 ∨ (Rect.block (s := S100000x2) S10000x2.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x2_S10000x2_1_0_0_1_n_n : DotDims S10000x32 S32x2 S10000x2 where
  lhsContracting := [1]
  rhsContracting := [0]
  lhsNonContracting := [0]
  rhsNonContracting := [1]
  lhsBatch := []
  rhsBatch := []
  wf := dot_S10000x32_S32x2_S10000x2_1_0_0_1_n_n_wf

abbrev win0_0 : Pipeline.Window sig grid0 :=
  Pipeline.Window.ofSpec (Memref.whole main_v24) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v46) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S32x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S10000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩
abbrev S100000x2 : Shape := ⟨2, ![100000, 2]⟩
abbrev S1x2 : Shape := ⟨2, ![1, 2]⟩

abbrev nBuf : Space → Nat
  | .hbm => 80
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S32x2, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .f32⟩
  | .hbm, ⟨35, _⟩ => ⟨S_, .f32⟩
  | .hbm, ⟨36, _⟩ => ⟨S100000x64, .f32⟩
  | .hbm, ⟨37, _⟩ => ⟨S1600000x1, .i32⟩
  | .hbm, ⟨38, _⟩ => ⟨S100000x64, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .hbm, ⟨64, _⟩ => ⟨S100000x1, .f32⟩
  | .hbm, ⟨65, _⟩ => ⟨S100000x64, .f32⟩
  | .hbm, ⟨66, _⟩ => ⟨S100000x64, .f32⟩
  | .hbm, ⟨67, _⟩ => ⟨S100000x32, .f32⟩
  | .hbm, ⟨68, _⟩ => ⟨S1x32, .f32⟩
  | .hbm, ⟨69, _⟩ => ⟨S100000x32, .f32⟩
  | .hbm, ⟨70, _⟩ => ⟨S100000x32, .f32⟩
  | .hbm, ⟨71, _⟩ => ⟨S100000x32, .f32⟩
  | .hbm, ⟨72, _⟩ => ⟨S100000x32, .f32⟩
  | .hbm, ⟨73, _⟩ => ⟨S_, .f32⟩
  | .hbm, ⟨74, _⟩ => ⟨S100000x32, .f32⟩
  | .hbm, ⟨75, _⟩ => ⟨S100000x32, .f32⟩
  | .hbm, ⟨76, _⟩ => ⟨S100000x2, .f32⟩
  | .hbm, ⟨77, _⟩ => ⟨S1x2, .f32⟩
  | .hbm, ⟨78, _⟩ => ⟨S100000x2, .f32⟩
  | .hbm, ⟨79, _⟩ => ⟨S100000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_cst : Ref sig .tc := ⟨.hbm, 73, rfl⟩
abbrev main_call1_v0 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x2_S100000x2_1_0_0_1_n_n_wf : DotDims.WF S100000x32 S32x2 S100000x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf

class Facts : Prop extends Facts₀ where

variable [Facts]
-- ==== Proof.KernelRun.lean ====
/-
  The kernel program's run with its result named.

  The program is five segments: the host operations that build the first aggregation, the first layer's region, the
  host operations that build the second aggregation from the first layer's output, the second layer's region and the
  output layer's region.  Every weakly fair execution runs them in order, and the thread's buffers after the last
  region hold a definite valuation: each region's arrays at what its blocks' write-backs leave, every other buffer as
  the previous segment left it.  The frame states of that valuation only that the argument arrays are as launched;
  here the same run is read once more at the result buffer, so that the result array is NAMED by that valuation.
-/
import proofs.«128696_j71330816852688_1_alg».proof.Defs
import proofs.«128696_j71330816852688_1_alg».proof.Proof.KernelIdealFrameP

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the last
    boundary's valuation and the argument arrays as launched. -/
theorem run_named : θ_run defs (onTc (τ := τ) (main (F := F))) ⟨m, fun _ => 0, ρ⟩ (fun r => ∀ c : Dev nD,
      r.2.mem ((c.tc : Thread nD τ).loc main_v48) = W5 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v48 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.Run

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.LibRowwise.lean ====
/-
  Row-wise readings of a matrix `[n, c]`, at an entry given by its two coordinates.

  A row vector `[c]` laid under every row of an `[n, c]` matrix (cast to `[1, c]`, then broadcast down the rows) reads, at
  `(p, j)`, its entry `j`; a column `[n]` laid beside every column (cast to `[n, 1]`, then broadcast along the rows) reads,
  at `(p, j)`, its entry `p`; column `o` of an `[n, b]` matrix cut out as `[n, 1]` and broadcast along the rows reads, at
  `(p, j)`, the entry `(p, o)`. The host's reduce of an `[a, b]` matrix over its second axis by a commutative,
  associative body is, at row `r`, the fold of the body from the initial value over the entries `(r, k)`; its float sum
  is the initial value plus the row's sum.
  Library imports only.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowwise

open Idealize.ShloMosaic Idealize.ShloMosaic.ValueIdx
open scoped BigOperators

variable {α : Type}

/-- A `[c]` array cast to `[1, c]` and broadcast down `n` rows reads, at `(p, j)`, the operand at `j`. -/
theorem rowUnder_apply {n c : ℕ} (b : (⟨1, ![c]⟩ : Shape).Idx → α) (hc : (⟨1, ![c]⟩ : Shape).ShapeCasts ⟨2, ![1, c]⟩)
    (hb : (⟨2, ![1, c]⟩ : Shape).Broadcasts ⟨2, ![n, c]⟩) (p : Fin n) (j : Fin c) :
    broadcastTo ⟨2, ![n, c]⟩ (shapeCast ⟨2, ![1, c]⟩ b hc) hb (ix2 p j) = b (ix1 j) := by
  refine (broadcastTo_apply (shapeCast ⟨2, ![1, c]⟩ b hc) hb (ix2 p j) (ix2 (0 : Fin 1) j) fun ax => ?_).trans ?_
  · match ax with
    | ⟨0, _⟩ => rfl
    | ⟨1, _⟩ =>
      show j.val = if c = 1 then 0 else j.val
      split
      · have := j.isLt; omega
      · rfl
  · exact shapeCast_apply b hc _ _ (by
      rw [Shape.rowMajor_val_two, Shape.rowMajor_val_one]
      show j.val = 0 * c + j.val
      omega)

/-- An `[n]` array cast to `[n, 1]` and broadcast along `c` columns reads, at `(p, j)`, the operand at `p`. -/
theorem columnBeside_apply {n c : ℕ} (v : (⟨1, ![n]⟩ : Shape).Idx → α) (hc : (⟨1, ![n]⟩ : Shape).ShapeCasts ⟨2, ![n, 1]⟩)
    (hb : (⟨2, ![n, 1]⟩ : Shape).Broadcasts ⟨2, ![n, c]⟩) (p : Fin n) (j : Fin c) :
    broadcastTo ⟨2, ![n, c]⟩ (shapeCast ⟨2, ![n, 1]⟩ v hc) hb (ix2 p j) = v (ix1 p) := by
  refine (broadcastTo_apply (shapeCast ⟨2, ![n, 1]⟩ v hc) hb (ix2 p j) (ix2 p (0 : Fin 1)) fun ax => ?_).trans ?_
  · match ax with
    | ⟨0, _⟩ =>
      show p.val = if n = 1 then 0 else p.val
      split
      · have := p.isLt; omega
      · rfl
    | ⟨1, _⟩ => rfl
  · exact shapeCast_apply v hc _ _ (by
      rw [Shape.rowMajor_val_two, Shape.rowMajor_val_one]
      show p.val = p.val * 1 + 0
      omega)

/-- Column `o` of an `[n, b]` matrix, cut out as `[n, 1]` and broadcast along `c` columns, reads at `(p, j)` the entry
    `(p, o)`. -/
theorem columnOf_apply {n b c : ℕ} (g : (⟨2, ![n, b]⟩ : Shape).Idx → α) (o : ℕ) (ho : o < b)
    (hs : (⟨2, ![n, b]⟩ : Shape).Slices ![0, o] ⟨2, ![n, 1]⟩)
    (hb : (⟨2, ![n, 1]⟩ : Shape).Broadcasts ⟨2, ![n, c]⟩) (p : Fin n) (j : Fin c) :
    broadcastTo ⟨2, ![n, c]⟩ (extractStridedSlice ⟨2, ![n, 1]⟩ ![0, o] g hs) hb (ix2 p j) = g (ix2 p (⟨o, ho⟩ : Fin b)) := by
  refine (broadcastTo_apply (extractStridedSlice ⟨2, ![n, 1]⟩ ![0, o] g hs) hb (ix2 p j) (ix2 p (0 : Fin 1)) fun ax => ?_).trans ?_
  · match ax with
    | ⟨0, _⟩ =>
      show p.val = if n = 1 then 0 else p.val
      split
      · have := p.isLt; omega
      · rfl
    | ⟨1, _⟩ => rfl
  · exact extractStridedSlice_apply ![0, o] g hs (ix2 p (0 : Fin 1)) (ix2 p (⟨o, ho⟩ : Fin b)) fun ax => by
      match ax with
      | ⟨0, _⟩ => show p.val = 0 + p.val; omega
      | ⟨1, _⟩ => show o = o + 0; omega

/-- Row `r` with the second coordinate `k` put back is the entry `(r, k)`. -/
theorem lift_second {a b : ℕ} (h : (⟨2, ![a, b]⟩ : Shape).Reduces [1] ⟨1, ![a]⟩) (r : Fin a) (k : Fin b) :
    h.lift (ix1 r) k = ix2 r k := by
  funext c; apply Fin.ext
  fin_cases c <;> rfl

/-- The host's reduce of a matrix over its second axis by a commutative, associative body, at row `r`: the fold from the
    initial value over the row's entries. -/
theorem hostReduce_row {a b : ℕ} {u : Shape} (f : α → α → α) [Std.Commutative f] [Std.Associative f]
    (x : (⟨2, ![a, b]⟩ : Shape).Idx → α) (init : u.Idx → α)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce f x init h' hu (ix1 r)
      = (Finset.univ : Finset (Fin b)).fold f (init (Shape.Idx.first hu)) fun k => x (ix2 r k) :=
  (Host.reduce_eq_fold_single f x init h' h hu (ix1 r)).trans
    (congrArg (fun g => Finset.fold f (init (Shape.Idx.first hu)) g (Finset.univ : Finset (Fin b)))
      (funext fun k => congrArg x (lift_second h r k)))

end Cert.LibRowwise

end
-- ==== Proof.LibAffineLayer.lean ====
/-
  A dense layer of a feature matrix, read at an entry.

  For a feature matrix h of shape [n, d] and a weight matrix w of shape [d, e], entry (p, q) of the product h · w is
  Σ_k h (p, k) · w (k, q).  The affine layer h · w + b adds the bias row's entry q; the rectified two-branch layer
  max ((a · wl + b) + x · wr, z) — a node's aggregated neighbourhood a through wl, its own features x through wr —
  adds the second product and takes the maximum with a constant z.  These are stated once as arrays over any row
  count n, so that a block of rows and the whole matrix are read by the same formula.

  On a block of rows the matrix unit computes exactly these entries: a product into a zero accumulator is the
  textbook sum, a change of float format is the identity on extended reals, and the bias row cast to [1, e] and laid
  under every row reads its entry q.  All sums are finite sums on the extended reals; no finiteness of the data is
  used, since nothing is rearranged.
  Library imports and the two sibling lemma files LibDot, LibRowwise only.
-/
import Idealize.ShloMosaic.PureOps.Ideal.Laws
import Idealize.ShloMosaic.Lib.ValueIdx
import Idealize.ShloMosaic.Lib.ValueLayout
import Idealize.ShloMosaic.Lib.Pipeline.Value
import proofs.«128696_j71330816852688_1_alg».proof.Proof.LibDot
import proofs.«128696_j71330816852688_1_alg».proof.Proof.LibRowwise

noncomputable section

namespace Cert.LibAffineLayer

open Idealize.ShloMosaic Idealize.ShloMosaic.ValueIdx
open scoped BigOperators

variable {n d e : ℕ}

/-- Entry (p, q) of the product h · w: the sum over k of h (p, k) · w (k, q). -/
def prodAt (h : (⟨2, ![n, d]⟩ : Shape).Idx → EReal) (w : (⟨2, ![d, e]⟩ : Shape).Idx → EReal) (p : Fin n) (q : Fin e) : EReal :=
  ∑ k : Fin d, h (ix2 p k) * w (ix2 k q)

/-- The affine layer h · w + b, as an array of shape [n, e]. -/
def affine (h : (⟨2, ![n, d]⟩ : Shape).Idx → EReal) (w : (⟨2, ![d, e]⟩ : Shape).Idx → EReal)
    (b : (⟨1, ![e]⟩ : Shape).Idx → EReal) : (⟨2, ![n, e]⟩ : Shape).Idx → EReal :=
  fun i => prodAt h w (i 0) (i 1) + b (ix1 (i 1))

/-- The rectified two-branch layer max ((a · wl + b) + x · wr, z), as an array of shape [n, e]. -/
def twoBranch (z : EReal) (a x : (⟨2, ![n, d]⟩ : Shape).Idx → EReal) (wl wr : (⟨2, ![d, e]⟩ : Shape).Idx → EReal)
    (b : (⟨1, ![e]⟩ : Shape).Idx → EReal) : (⟨2, ![n, e]⟩ : Shape).Idx → EReal :=
  fun i => max ((prodAt a wl (i 0) (i 1) + b (ix1 (i 1))) + prodAt x wr (i 0) (i 1)) z

theorem affine_ix2 (h : (⟨2, ![n, d]⟩ : Shape).Idx → EReal) (w : (⟨2, ![d, e]⟩ : Shape).Idx → EReal)
    (b : (⟨1, ![e]⟩ : Shape).Idx → EReal) (p : Fin n) (q : Fin e) :
    affine h w b (ix2 p q) = prodAt h w p q + b (ix1 q) := rfl

theorem twoBranch_ix2 (z : EReal) (a x : (⟨2, ![n, d]⟩ : Shape).Idx → EReal) (wl wr : (⟨2, ![d, e]⟩ : Shape).Idx → EReal)
    (b : (⟨1, ![e]⟩ : Shape).Idx → EReal) (p : Fin n) (q : Fin e) :
    twoBranch z a x wl wr b (ix2 p q) = max ((prodAt a wl p q + b (ix1 q)) + prodAt x wr p q) z := rfl

/-- A change of float format is the identity on extended reals. -/
theorem truncf_eq {s : Shape} {φ ψ : FTy} (v : FVec Ideal s φ) (h : ψ.bits < φ.bits) :
    (truncf ψ v h : FVec Ideal s ψ) = v := rfl

section Unit

variable (D : DotDims ⟨2, ![n, d]⟩ ⟨2, ![d, e]⟩ ⟨2, ![n, e]⟩) (hr : D.contr.rank = 1)
  (hs : D.contr.size ⟨0, by omega⟩ = d)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The matrix unit's h · w into a zero accumulator plus the bias row laid under every row, at (p, q). -/
theorem unit_affine_apply {φ₁ φ₂ : FTy} (h : FVec Ideal ⟨2, ![n, d]⟩ φ₁) (w : FVec Ideal ⟨2, ![d, e]⟩ φ₂)
    (b : (⟨1, ![e]⟩ : Shape).Idx → EReal) (hc : (⟨1, ![e]⟩ : Shape).ShapeCasts ⟨2, ![1, e]⟩)
    (hb : (⟨2, ![1, e]⟩ : Shape).Broadcasts ⟨2, ![n, e]⟩) (p : Fin n) (q : Fin e) :
    FloatOps.matmul D none h w (constant ⟨2, ![n, e]⟩ .f32 0x00000000#32) (ix2 p q)
        + broadcastTo ⟨2, ![n, e]⟩ (shapeCast ⟨2, ![1, e]⟩ b hc) hb (ix2 p q)
      = prodAt h w p q + b (ix1 q) := by
  rw [LibDot.matmul_zero_apply D hr hs hl0 hl1 hr0 hr1, LibRowwise.rowUnder_apply]
  rfl

/-- The rectified two-branch layer as the matrix unit computes it on a block, at (p, q). -/
theorem unit_twoBranch_apply {φ₁ φ₂ : FTy} (z : EReal) (a x : FVec Ideal ⟨2, ![n, d]⟩ φ₁) (wl wr : FVec Ideal ⟨2, ![d, e]⟩ φ₂)
    (b : (⟨1, ![e]⟩ : Shape).Idx → EReal) (hc : (⟨1, ![e]⟩ : Shape).ShapeCasts ⟨2, ![1, e]⟩)
    (hb : (⟨2, ![1, e]⟩ : Shape).Broadcasts ⟨2, ![n, e]⟩) (p : Fin n) (q : Fin e) :
    max ((FloatOps.matmul D none a wl (constant ⟨2, ![n, e]⟩ .f32 0x00000000#32) (ix2 p q)
          + broadcastTo ⟨2, ![n, e]⟩ (shapeCast ⟨2, ![1, e]⟩ b hc) hb (ix2 p q))
        + FloatOps.matmul D none x wr (constant ⟨2, ![n, e]⟩ .f32 0x00000000#32) (ix2 p q)) z
      = max ((prodAt a wl p q + b (ix1 q)) + prodAt x wr p q) z := by
  rw [unit_affine_apply D hr hs hl0 hl1 hr0 hr1, LibDot.matmul_zero_apply D hr hs hl0 hl1 hr0 hr1]
  rfl

end Unit

end Cert.LibAffineLayer

end
-- ==== Proof.FirstRegion.lean ====
/-
  The first layer's region: h1 = max ((A x · Wl1 + bl1) + x · Wr1, 0), ten blocks of 10000 rows.

  Grid point t loads rows 10000·t … 10000·t + 9999 of the aggregated neighbourhood A x and of the node features x (all
  64 columns), the two whole 64 × 64 weight matrices and the whole bias row, and writes back the same rows of h1.
  Entry (p, q) of the block it writes is the rectified two-branch layer's entry at row 10000·t + p: the matrix unit's
  products are the sums over the 64 features, the bias row is laid under every row, and the maximum with the constant
  0 is taken entrywise.  The ten blocks tile the 100000 rows, so after the region the result array is that layer of
  the arrays the region was entered with.
-/
import proofs.«128696_j71330816852688_1_alg».proof.Defs
import proofs.«128696_j71330816852688_1_alg».proof.Proof.Gen.KernelIdeal
import proofs.«128696_j71330816852688_1_alg».proof.Proof.Gen.KernelIdeal.Skeleton
import proofs.«128696_j71330816852688_1_alg».proof.Proof.Gen.KernelIdeal.Points
import proofs.«128696_j71330816852688_1_alg».proof.Proof.KernelIdealLaunchP
import proofs.«128696_j71330816852688_1_alg».proof.Proof.KernelIdealFrameP
import proofs.«128696_j71330816852688_1_alg».proof.Proof.LibAffineLayer
import Idealize.ShloMosaic.Lib.Pipeline.Value
import Idealize.ShloMosaic.Lib.ValueIdx
import Idealize.ShloMosaic.PureOps.Ideal.Laws

set_option maxRecDepth 16384

noncomputable section

namespace Cert.KernelIdeal.FirstRegion

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)
open Cert.LibAffineLayer
open scoped BigOperators

theorem hz2 : (![0, 0] : Fin 2 → Nat) = fun _ => 0 := funext fun a => by fin_cases a <;> rfl
theorem hz1 : (![0] : Fin 1 → Nat) = fun _ => 0 := funext fun a => by fin_cases a; rfl

/-! ## The matrix unit's dimension numbers: rows × contraction times contraction × columns -/

theorem dims_l0 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dims_l1 (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem dims_r0 (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem dims_r1 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- What one grid point stores, at entry (p, q) of its block: the rectified two-branch layer's entry of the loaded blocks. -/
theorem stored_apply (v0 v3 : Vec Ideal S10000x64 .f32) (vl vr : Vec Ideal S64x64 .f32) (vb : Vec Ideal S64 .f32) (p : Fin 10000) (q : Fin 64) :
    k0_pay1 v0 v3 vl vr vb (ix2 p q)
      = max ((prodAt v0 vl p q + vb (ix1 q)) + prodAt v3 vr p q) (Ideal.ofBits .f32 0x00000000#32) := by
  unfold k0_pay1
  simp only [shapeCast_self]
  exact unit_twoBranch_apply dot_S10000x64_S64x64_S10000x64_1_0_0_1_n_n rfl rfl dims_l0 dims_l1 dims_r0 dims_r1 _ _ _ _ _ vb _ _ p q

variable (V : (c : Dev nD) → (b : Ref sig .tc) → Buf (Elt Ideal) ((c : Thread nD τ).loc b))

/-- The printed index maps, decided over the ten grid points: the two feature windows and the result window move one
    block of rows per point, the two weight windows and the bias window stay on their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of grid point t's block is row 10000·t + p of the array. -/
def row (t : Fin cfg0.N) (p : Fin 10000) : Fin 100000 :=
  ⟨t.val * 10000 + p.val, by have h : t.val < 10 := lt_of_lt_of_eq t.isLt N_0; have := p.isLt; omega⟩

/-- The aggregated-neighbourhood window's block at point t, at (p, k): row 10000·t + p of that array. -/
theorem aggr_blk (c : Dev nD) (t : Fin cfg0.N) (p : Fin 10000) (k : Fin 64) :
    iblk0 V c 0 t (ix2 p k) = (V c main_v24 : S100000x64.Idx → EReal) (ix2 (row t p) k) := by
  obtain ⟨e0, e1, -⟩ := idx_facts t
  show V c main_v24 (((cfg0.win 0).blk t).view.emb (ix2 p k)) = _
  refine congrArg _ (funext fun a => Fin.ext ?_)
  match a with
  | ⟨0, _⟩ => show win0_0.index t (0 : Fin 2) * 10000 + 1 * p.val = t.val * 10000 + p.val; rw [e0]; omega
  | ⟨1, _⟩ => show win0_0.index t (1 : Fin 2) * 64 + 1 * k.val = k.val; rw [e1]; omega

/-- The node-feature window's block at point t, at (p, k): row 10000·t + p of that array. -/
theorem self_blk (c : Dev nD) (t : Fin cfg0.N) (p : Fin 10000) (k : Fin 64) :
    iblk0 V c 1 t (ix2 p k) = (V c main_arg0 : S100000x64.Idx → EReal) (ix2 (row t p) k) := by
  obtain ⟨-, -, e2, e3, -⟩ := idx_facts t
  show V c main_arg0 (((cfg0.win 1).blk t).view.emb (ix2 p k)) = _
  refine congrArg _ (funext fun a => Fin.ext ?_)
  match a with
  | ⟨0, _⟩ => show win0_1.index t (0 : Fin 2) * 10000 + 1 * p.val = t.val * 10000 + p.val; rw [e2]; omega
  | ⟨1, _⟩ => show win0_1.index t (1 : Fin 2) * 64 + 1 * k.val = k.val; rw [e3]; omega

/-- The neighbour-weight window's one block is the whole weight matrix. -/
theorem wl_blk (c : Dev nD) (t : Fin cfg0.N) (k : Fin 64) (q : Fin 64) :
    iblk0 V c 2 t (ix2 k q) = (V c main_arg2 : S64x64.Idx → EReal) (ix2 k q) := by
  obtain ⟨-, -, -, -, e4, e5, -⟩ := idx_facts t
  show V c main_arg2 (((cfg0.win 2).blk t).view.emb (ix2 k q)) = _
  refine congrArg _ (funext fun a => Fin.ext ?_)
  match a with
  | ⟨0, _⟩ => show win0_2.index t (0 : Fin 2) * 64 + 1 * k.val = k.val; rw [e4]; omega
  | ⟨1, _⟩ => show win0_2.index t (1 : Fin 2) * 64 + 1 * q.val = q.val; rw [e5]; omega

/-- The bias window's one block is the whole bias row. -/
theorem bias_blk (c : Dev nD) (t : Fin cfg0.N) (q : Fin 64) :
    iblk0 V c 3 t (ix1 q) = (V c main_arg3 : S64.Idx → EReal) (ix1 q) := by
  obtain ⟨-, -, -, -, -, -, e6, -⟩ := idx_facts t
  show V c main_arg3 (((cfg0.win 3).blk t).view.emb (ix1 q)) = _
  refine congrArg _ (funext fun a => Fin.ext ?_)
  match a with
  | ⟨0, _⟩ => show win0_3.index t (0 : Fin 1) * 64 + 1 * q.val = q.val; rw [e6]; omega

/-- The root-weight window's one block is the whole weight matrix. -/
theorem wr_blk (c : Dev nD) (t : Fin cfg0.N) (k : Fin 64) (q : Fin 64) :
    iblk0 V c 4 t (ix2 k q) = (V c main_arg4 : S64x64.Idx → EReal) (ix2 k q) := by
  obtain ⟨-, -, -, -, -, -, -, e7, e8, -⟩ := idx_facts t
  show V c main_arg4 (((cfg0.win 4).blk t).view.emb (ix2 k q)) = _
  refine congrArg _ (funext fun a => Fin.ext ?_)
  match a with
  | ⟨0, _⟩ => show win0_4.index t (0 : Fin 2) * 64 + 1 * k.val = k.val; rw [e7]; omega
  | ⟨1, _⟩ => show win0_4.index t (1 : Fin 2) * 64 + 1 * q.val = q.val; rw [e8]; omega

/-- WHAT POINT t WRITES BACK is block t of the rectified two-branch layer of the arrays as the region finds them. -/
theorem flushed_eq (c : Dev nD) (t : Fin cfg0.N) :
    (dat0 V c).flushed 5 t = ((cfg0.win 5).blk t).view.read (Elt Ideal)
      (twoBranch (Ideal.ofBits .f32 0x00000000#32) (V c main_v24 : S100000x64.Idx → EReal) (V c main_arg0 : S100000x64.Idx → EReal) (V c main_arg2 : S64x64.Idx → EReal) (V c main_arg4 : S64x64.Idx → EReal) (V c main_arg3 : S64.Idx → EReal)) := by
  show (cfg0.win 5).cut (grid0.coords t) ((dat0 V c).after 5 t) = _
  rw [after0_5]
  unfold out0_5
  rw [View.canon_unit_zero hz2]
  simp only [View.ld_unit_zero (S := S10000x64) hz2, View.ld_unit_zero (S := S64x64) hz2, View.ld_unit_zero (S := S64) hz1]
  obtain ⟨-, -, -, -, -, -, -, -, -, e9, e10⟩ := idx_facts t
  funext j
  obtain ⟨p, q, rfl⟩ : ∃ (p : Fin 10000) (q : Fin 64), j = ix2 p q := ⟨j 0, j 1, eq_ix2 j⟩
  show k0_pay1 (iblk0 V c 0 t) (iblk0 V c 1 t) (iblk0 V c 2 t) (iblk0 V c 4 t) (iblk0 V c 3 t) (ix2 p q)
    = (twoBranch (Ideal.ofBits .f32 0x00000000#32) (V c main_v24 : S100000x64.Idx → EReal) (V c main_arg0 : S100000x64.Idx → EReal) (V c main_arg2 : S64x64.Idx → EReal) (V c main_arg4 : S64x64.Idx → EReal) (V c main_arg3 : S64.Idx → EReal))
        (((cfg0.win 5).blk t).view.emb (ix2 p q))
  have hemb : ((cfg0.win 5).blk t).view.emb (ix2 p q) = (ix2 (row t p) q : S100000x64.Idx) := funext fun a => Fin.ext (by
    match a with
    | ⟨0, _⟩ => show win0_5.index t (0 : Fin 2) * 10000 + 1 * p.val = t.val * 10000 + p.val; rw [e9]; omega
    | ⟨1, _⟩ => show win0_5.index t (1 : Fin 2) * 64 + 1 * q.val = q.val; rw [e10]; omega)
  rw [hemb, twoBranch_ix2]
  refine (stored_apply (iblk0 V c 0 t) (iblk0 V c 1 t) (iblk0 V c 2 t) (iblk0 V c 4 t) (iblk0 V c 3 t) p q).trans ?_
  rw [bias_blk V c t q]
  have h1 : prodAt (iblk0 V c 0 t) (iblk0 V c 2 t) p q = prodAt (V c main_v24 : S100000x64.Idx → EReal) (V c main_arg2 : S64x64.Idx → EReal) (row t p) q :=
    Finset.sum_congr rfl fun k _ => by rw [aggr_blk V c t p k, wl_blk V c t k q]
  have h2 : prodAt (iblk0 V c 1 t) (iblk0 V c 4 t) p q = prodAt (V c main_arg0 : S100000x64.Idx → EReal) (V c main_arg4 : S64x64.Idx → EReal) (row t p) q :=
    Finset.sum_congr rfl fun k _ => by rw [self_blk V c t p k, wr_blk V c t k q]
  rw [h1, h2]

/-- An index of the result array is in point t's block iff its row is among the block's 10000. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v25).slice (win0_5.rect t)).set ↔ _
  rw [View.set_slice_whole, Rect.mem_set_unit]
  exact Iff.rfl

/-- The ten blocks tile the array: row r is in the block of point r / 10000. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  let t : Fin cfg0.N := ⟨(i 0).val / 10000, lt_of_lt_of_eq (by omega) N_0.symm⟩
  obtain ⟨-, -, -, -, -, -, -, -, -, e9, e10⟩ := idx_facts t
  have ht : t.val = (i 0).val / 10000 := rfl
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; rw [e9, ht]; omega
  | ⟨1, _⟩ => show win0_5.index t (1 : Fin 2) * 64 ≤ (i 1).val ∧ (i 1).val < win0_5.index t (1 : Fin 2) * 64 + 64; rw [e10]; omega

/-- THE RESULT ARRAY after the region: the rectified two-branch layer of the arrays the region was entered with. -/
theorem final (c : Dev nD) :
    (dat0 V c).arrAt 5 cfg0.N
      = twoBranch (Ideal.ofBits .f32 0x00000000#32) (V c main_v24 : S100000x64.Idx → EReal) (V c main_arg0 : S100000x64.Idx → EReal) (V c main_arg2 : S64x64.Idx → EReal) (V c main_arg4 : S64x64.Idx → EReal) (V c main_arg3 : S64.Idx → EReal) :=
  (dat0 V c).arrAt_eq_of_cover 5 _ (fun t _ => flushed_eq V c t) (cover)

end Cert.KernelIdeal.FirstRegion

end
-- ==== Proof.SecondRegion.lean ====
/-
  The second layer's region: h2 = max ((A h1 · Wl2 + bl2) + h1 · Wr2, 0), ten blocks of 10000 rows.

  Grid point t loads rows 10000·t … 10000·t + 9999 of the aggregated neighbourhood A h1 and of the first layer's
  output h1 (all 64 columns), the two whole 64 × 32 weight matrices and the whole bias row, and writes back the same
  rows of h2 (32 columns).  Entry (p, q) of the block it writes is the rectified two-branch layer's entry at row
  10000·t + p.  The ten blocks tile the 100000 rows, so after the region the result array is that layer of the arrays
  the region was entered with.
-/
import proofs.«128696_j71330816852688_1_alg».proof.Defs
import proofs.«128696_j71330816852688_1_alg».proof.Proof.Gen.KernelIdeal
import proofs.«128696_j71330816852688_1_alg».proof.Proof.Gen.KernelIdeal.Skeleton
import proofs.«128696_j71330816852688_1_alg».proof.Proof.Gen.KernelIdeal.Points
import proofs.«128696_j71330816852688_1_alg».proof.Proof.KernelIdealLaunchP
import proofs.«128696_j71330816852688_1_alg».proof.Proof.KernelIdealFrameP
import proofs.«128696_j71330816852688_1_alg».proof.Proof.LibAffineLayer
import Idealize.ShloMosaic.Lib.Pipeline.Value
import Idealize.ShloMosaic.Lib.ValueIdx
import Idealize.ShloMosaic.PureOps.Ideal.Laws

set_option maxRecDepth 16384

noncomputable section

namespace Cert.KernelIdeal.SecondRegion

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)
open Cert.LibAffineLayer
open scoped BigOperators

theorem hz2 : (![0, 0] : Fin 2 → Nat) = fun _ => 0 := funext fun a => by fin_cases a <;> rfl
theorem hz1 : (![0] : Fin 1 → Nat) = fun _ => 0 := funext fun a => by fin_cases a; rfl

/-! ## The matrix unit's dimension numbers: rows × contraction times contraction × columns -/

theorem dims_l0 (i : S10000x32.Idx) (q : dot_S10000x64_S64x32_S10000x32_1_0_0_1_n_n.contr.Idx) : (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem dims_l1 (i : S10000x32.Idx) (q : dot_S10000x64_S64x32_S10000x32_1_0_0_1_n_n.contr.Idx) : (dot_S10000x64_S64x32_S10000x32_1_0_0_1_n_n.lhsIdx i q 1).val = (q ⟨0, by decide⟩).val :=
  dot_S10000x64_S64x32_S10000x32_1_0_0_1_n_n.lhsIdx_val_of_single rfl i q
theorem dims_r0 (i : S10000x32.Idx) (q : dot_S10000x64_S64x32_S10000x32_1_0_0_1_n_n.contr.Idx) : (dot_S10000x64_S64x32_S10000x32_1_0_0_1_n_n.rhsIdx i q 0).val = (q ⟨0, by decide⟩).val :=
  dot_S10000x64_S64x32_S10000x32_1_0_0_1_n_n.rhsIdx_val_of_single rfl i q
theorem dims_r1 (i : S10000x32.Idx) (q : dot_S10000x64_S64x32_S10000x32_1_0_0_1_n_n.contr.Idx) : (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- What one grid point stores, at entry (p, q) of its block: the rectified two-branch layer's entry of the loaded blocks. -/
theorem stored_apply (v0 v3 : Vec Ideal S10000x64 .f32) (vl vr : Vec Ideal S64x32 .f32) (vb : Vec Ideal S32 .f32) (p : Fin 10000) (q : Fin 32) :
    k1_pay1 v0 v3 vl vr vb (ix2 p q)
      = max ((prodAt v0 vl p q + vb (ix1 q)) + prodAt v3 vr p q) (Ideal.ofBits .f32 0x00000000#32) := by
  unfold k1_pay1
  simp only [shapeCast_self]
  exact unit_twoBranch_apply dot_S10000x64_S64x32_S10000x32_1_0_0_1_n_n rfl rfl dims_l0 dims_l1 dims_r0 dims_r1 _ _ _ _ _ vb _ _ p q

variable (V : (c : Dev nD) → (b : Ref sig .tc) → Buf (Elt Ideal) ((c : Thread nD τ).loc b))

/-- The printed index maps, decided over the ten grid points: the two feature windows and the result window move one
    block of rows per point, the two weight windows and the bias window stay on their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of grid point t's block is row 10000·t + p of the array. -/
def row (t : Fin cfg1.N) (p : Fin 10000) : Fin 100000 :=
  ⟨t.val * 10000 + p.val, by have h : t.val < 10 := lt_of_lt_of_eq t.isLt N_1; have := p.isLt; omega⟩

/-- The aggregated-neighbourhood window's block at point t, at (p, k): row 10000·t + p of that array. -/
theorem aggr_blk (c : Dev nD) (t : Fin cfg1.N) (p : Fin 10000) (k : Fin 64) :
    iblk1 V c 0 t (ix2 p k) = (V c main_v46 : S100000x64.Idx → EReal) (ix2 (row t p) k) := by
  obtain ⟨e0, e1, -⟩ := idx_facts t
  show V c main_v46 (((cfg1.win 0).blk t).view.emb (ix2 p k)) = _
  refine congrArg _ (funext fun a => Fin.ext ?_)
  match a with
  | ⟨0, _⟩ => show win1_0.index t (0 : Fin 2) * 10000 + 1 * p.val = t.val * 10000 + p.val; rw [e0]; omega
  | ⟨1, _⟩ => show win1_0.index t (1 : Fin 2) * 64 + 1 * k.val = k.val; rw [e1]; omega

/-- The node-feature window's block at point t, at (p, k): row 10000·t + p of that array. -/
theorem self_blk (c : Dev nD) (t : Fin cfg1.N) (p : Fin 10000) (k : Fin 64) :
    iblk1 V c 1 t (ix2 p k) = (V c main_v25 : S100000x64.Idx → EReal) (ix2 (row t p) k) := by
  obtain ⟨-, -, e2, e3, -⟩ := idx_facts t
  show V c main_v25 (((cfg1.win 1).blk t).view.emb (ix2 p k)) = _
  refine congrArg _ (funext fun a => Fin.ext ?_)
  match a with
  | ⟨0, _⟩ => show win1_1.index t (0 : Fin 2) * 10000 + 1 * p.val = t.val * 10000 + p.val; rw [e2]; omega
  | ⟨1, _⟩ => show win1_1.index t (1 : Fin 2) * 64 + 1 * k.val = k.val; rw [e3]; omega

/-- The neighbour-weight window's one block is the whole weight matrix. -/
theorem wl_blk (c : Dev nD) (t : Fin cfg1.N) (k : Fin 64) (q : Fin 32) :
    iblk1 V c 2 t (ix2 k q) = (V c main_arg5 : S64x32.Idx → EReal) (ix2 k q) := by
  obtain ⟨-, -, -, -, e4, e5, -⟩ := idx_facts t
  show V c main_arg5 (((cfg1.win 2).blk t).view.emb (ix2 k q)) = _
  refine congrArg _ (funext fun a => Fin.ext ?_)
  match a with
  | ⟨0, _⟩ => show win1_2.index t (0 : Fin 2) * 64 + 1 * k.val = k.val; rw [e4]; omega
  | ⟨1, _⟩ => show win1_2.index t (1 : Fin 2) * 32 + 1 * q.val = q.val; rw [e5]; omega

/-- The bias window's one block is the whole bias row. -/
theorem bias_blk (c : Dev nD) (t : Fin cfg1.N) (q : Fin 32) :
    iblk1 V c 3 t (ix1 q) = (V c main_arg6 : S32.Idx → EReal) (ix1 q) := by
  obtain ⟨-, -, -, -, -, -, e6, -⟩ := idx_facts t
  show V c main_arg6 (((cfg1.win 3).blk t).view.emb (ix1 q)) = _
  refine congrArg _ (funext fun a => Fin.ext ?_)
  match a with
  | ⟨0, _⟩ => show win1_3.index t (0 : Fin 1) * 32 + 1 * q.val = q.val; rw [e6]; omega

/-- The root-weight window's one block is the whole weight matrix. -/
theorem wr_blk (c : Dev nD) (t : Fin cfg1.N) (k : Fin 64) (q : Fin 32) :
    iblk1 V c 4 t (ix2 k q) = (V c main_arg7 : S64x32.Idx → EReal) (ix2 k q) := by
  obtain ⟨-, -, -, -, -, -, -, e7, e8, -⟩ := idx_facts t
  show V c main_arg7 (((cfg1.win 4).blk t).view.emb (ix2 k q)) = _
  refine congrArg _ (funext fun a => Fin.ext ?_)
  match a with
  | ⟨0, _⟩ => show win1_4.index t (0 : Fin 2) * 64 + 1 * k.val = k.val; rw [e7]; omega
  | ⟨1, _⟩ => show win1_4.index t (1 : Fin 2) * 32 + 1 * q.val = q.val; rw [e8]; omega

/-- WHAT POINT t WRITES BACK is block t of the rectified two-branch layer of the arrays as the region finds them. -/
theorem flushed_eq (c : Dev nD) (t : Fin cfg1.N) :
    (dat1 V c).flushed 5 t = ((cfg1.win 5).blk t).view.read (Elt Ideal)
      (twoBranch (Ideal.ofBits .f32 0x00000000#32) (V c main_v46 : S100000x64.Idx → EReal) (V c main_v25 : S100000x64.Idx → EReal) (V c main_arg5 : S64x32.Idx → EReal) (V c main_arg7 : S64x32.Idx → EReal) (V c main_arg6 : S32.Idx → EReal)) := by
  show (cfg1.win 5).cut (grid1.coords t) ((dat1 V c).after 5 t) = _
  rw [after1_5]
  unfold out1_5
  rw [View.canon_unit_zero hz2]
  simp only [View.ld_unit_zero (S := S10000x64) hz2, View.ld_unit_zero (S := S64x32) hz2, View.ld_unit_zero (S := S32) hz1]
  obtain ⟨-, -, -, -, -, -, -, -, -, e9, e10⟩ := idx_facts t
  funext j
  obtain ⟨p, q, rfl⟩ : ∃ (p : Fin 10000) (q : Fin 32), j = ix2 p q := ⟨j 0, j 1, eq_ix2 j⟩
  show k1_pay1 (iblk1 V c 0 t) (iblk1 V c 1 t) (iblk1 V c 2 t) (iblk1 V c 4 t) (iblk1 V c 3 t) (ix2 p q)
    = (twoBranch (Ideal.ofBits .f32 0x00000000#32) (V c main_v46 : S100000x64.Idx → EReal) (V c main_v25 : S100000x64.Idx → EReal) (V c main_arg5 : S64x32.Idx → EReal) (V c main_arg7 : S64x32.Idx → EReal) (V c main_arg6 : S32.Idx → EReal))
        (((cfg1.win 5).blk t).view.emb (ix2 p q))
  have hemb : ((cfg1.win 5).blk t).view.emb (ix2 p q) = (ix2 (row t p) q : S100000x32.Idx) := funext fun a => Fin.ext (by
    match a with
    | ⟨0, _⟩ => show win1_5.index t (0 : Fin 2) * 10000 + 1 * p.val = t.val * 10000 + p.val; rw [e9]; omega
    | ⟨1, _⟩ => show win1_5.index t (1 : Fin 2) * 32 + 1 * q.val = q.val; rw [e10]; omega)
  rw [hemb, twoBranch_ix2]
  refine (stored_apply (iblk1 V c 0 t) (iblk1 V c 1 t) (iblk1 V c 2 t) (iblk1 V c 4 t) (iblk1 V c 3 t) p q).trans ?_
  rw [bias_blk V c t q]
  have h1 : prodAt (iblk1 V c 0 t) (iblk1 V c 2 t) p q = prodAt (V c main_v46 : S100000x64.Idx → EReal) (V c main_arg5 : S64x32.Idx → EReal) (row t p) q :=
    Finset.sum_congr rfl fun k _ => by rw [aggr_blk V c t p k, wl_blk V c t k q]
  have h2 : prodAt (iblk1 V c 1 t) (iblk1 V c 4 t) p q = prodAt (V c main_v25 : S100000x64.Idx → EReal) (V c main_arg7 : S64x32.Idx → EReal) (row t p) q :=
    Finset.sum_congr rfl fun k _ => by rw [self_blk V c t p k, wr_blk V c t k q]
  rw [h1, h2]

/-- An index of the result array is in point t's block iff its row is among the block's 10000. -/
theorem mem_blk (t : Fin cfg1.N) (i : S100000x32.Idx) :
    i ∈ ((cfg1.win 5).blk t).view.set ↔ ∀ a : Fin 2, win1_5.index t a * S10000x32.size a ≤ (i a).val ∧ (i a).val < win1_5.index t a * S10000x32.size a + S10000x32.size a := by
  show i ∈ ((View.whole main_v47).slice (win1_5.rect t)).set ↔ _
  rw [View.set_slice_whole, Rect.mem_set_unit]
  exact Iff.rfl

/-- The ten blocks tile the array: row r is in the block of point r / 10000. -/
theorem cover (i : S100000x32.Idx) : ∃ t : Fin cfg1.N, (cfg1.win 5).flush t = true ∧ i ∈ ((cfg1.win 5).blk t).view.set := by
  have hi0 : (i 0).val < 100000 := (i 0).isLt
  have hi1 : (i 1).val < 32 := (i 1).isLt
  let t : Fin cfg1.N := ⟨(i 0).val / 10000, lt_of_lt_of_eq (by omega) N_1.symm⟩
  obtain ⟨-, -, -, -, -, -, -, -, -, e9, e10⟩ := idx_facts t
  have ht : t.val = (i 0).val / 10000 := rfl
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; rw [e9, ht]; omega
  | ⟨1, _⟩ => show win1_5.index t (1 : Fin 2) * 32 ≤ (i 1).val ∧ (i 1).val < win1_5.index t (1 : Fin 2) * 32 + 32; rw [e10]; omega

/-- THE RESULT ARRAY after the region: the rectified two-branch layer of the arrays the region was entered with. -/
theorem final (c : Dev nD) :
    (dat1 V c).arrAt 5 cfg1.N
      = twoBranch (Ideal.ofBits .f32 0x00000000#32) (V c main_v46 : S100000x64.Idx → EReal) (V c main_v25 : S100000x64.Idx → EReal) (V c main_arg5 : S64x32.Idx → EReal) (V c main_arg7 : S64x32.Idx → EReal) (V c main_arg6 : S32.Idx → EReal) :=
  (dat1 V c).arrAt_eq_of_cover 5 _ (fun t _ => flushed_eq V c t) (cover)

end Cert.KernelIdeal.SecondRegion

end
-- ==== Proof.OutputRegion.lean ====
/-
  The output layer's region: out = h2 · Wf + bf, ten blocks of 10000 rows.

  Grid point t loads rows 10000·t … 10000·t + 9999 of the hidden features h2 (all 32 columns), the whole 32 × 2 weight
  matrix and the whole bias row, and writes back the same rows of the result.  Entry (p, q) of the block it writes is
  Σ_k h2 (10000·t + p, k) · Wf (k, q) + bf (q): the affine layer's entry at row 10000·t + p.  The ten blocks tile the
  100000 rows, so after the region the result array is the affine layer of the arrays the region was entered with.
-/
import proofs.«128696_j71330816852688_1_alg».proof.Defs
import proofs.«128696_j71330816852688_1_alg».proof.Proof.Gen.KernelIdeal
import proofs.«128696_j71330816852688_1_alg».proof.Proof.Gen.KernelIdeal.Skeleton
import proofs.«128696_j71330816852688_1_alg».proof.Proof.Gen.KernelIdeal.Points
import proofs.«128696_j71330816852688_1_alg».proof.Proof.KernelIdealLaunchP
import proofs.«128696_j71330816852688_1_alg».proof.Proof.KernelIdealFrameP
import proofs.«128696_j71330816852688_1_alg».proof.Proof.LibAffineLayer
import Idealize.ShloMosaic.Lib.Pipeline.Value
import Idealize.ShloMosaic.Lib.ValueIdx
import Idealize.ShloMosaic.PureOps.Ideal.Laws

set_option maxRecDepth 16384

noncomputable section

namespace Cert.KernelIdeal.OutputRegion

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)
open Cert.LibAffineLayer
open scoped BigOperators

theorem hz2 : (![0, 0] : Fin 2 → Nat) = fun _ => 0 := funext fun a => by fin_cases a <;> rfl
theorem hz1 : (![0] : Fin 1 → Nat) = fun _ => 0 := funext fun a => by fin_cases a; rfl

/-! ## The matrix unit's dimension numbers: rows × contraction times contraction × columns -/

theorem dims_l0 (i : S10000x2.Idx) (q : dot_S10000x32_S32x2_S10000x2_1_0_0_1_n_n.contr.Idx) : (dot_S10000x32_S32x2_S10000x2_1_0_0_1_n_n.lhsIdx i q 0).val = (i 0).val := by
  unfold DotDims.lhsIdx
  rw [dif_neg (show ¬(0 : Fin S10000x32.rank) ∈ dot_S10000x32_S32x2_S10000x2_1_0_0_1_n_n.lhsBatch by decide), dif_pos (show (0 : Fin S10000x32.rank) ∈ dot_S10000x32_S32x2_S10000x2_1_0_0_1_n_n.lhsNonContracting by decide)]
  rfl
theorem dims_l1 (i : S10000x2.Idx) (q : dot_S10000x32_S32x2_S10000x2_1_0_0_1_n_n.contr.Idx) : (dot_S10000x32_S32x2_S10000x2_1_0_0_1_n_n.lhsIdx i q 1).val = (q ⟨0, by decide⟩).val :=
  dot_S10000x32_S32x2_S10000x2_1_0_0_1_n_n.lhsIdx_val_of_single rfl i q
theorem dims_r0 (i : S10000x2.Idx) (q : dot_S10000x32_S32x2_S10000x2_1_0_0_1_n_n.contr.Idx) : (dot_S10000x32_S32x2_S10000x2_1_0_0_1_n_n.rhsIdx i q 0).val = (q ⟨0, by decide⟩).val :=
  dot_S10000x32_S32x2_S10000x2_1_0_0_1_n_n.rhsIdx_val_of_single rfl i q
theorem dims_r1 (i : S10000x2.Idx) (q : dot_S10000x32_S32x2_S10000x2_1_0_0_1_n_n.contr.Idx) : (dot_S10000x32_S32x2_S10000x2_1_0_0_1_n_n.rhsIdx i q 1).val = (i 1).val := by
  unfold DotDims.rhsIdx
  rw [dif_neg (show ¬(1 : Fin S32x2.rank) ∈ dot_S10000x32_S32x2_S10000x2_1_0_0_1_n_n.rhsBatch by decide), dif_pos (show (1 : Fin S32x2.rank) ∈ dot_S10000x32_S32x2_S10000x2_1_0_0_1_n_n.rhsNonContracting by decide)]
  rfl

/-- What one grid point stores, at entry (p, q) of its block: the affine layer's entry of the loaded blocks. -/
theorem stored_apply (v0 : Vec Ideal S10000x32 .f32) (v3 : Vec Ideal S32x2 .f32) (v6 : Vec Ideal S2 .f32) (p : Fin 10000) (q : Fin 2) :
    k2_pay1 v0 v3 v6 (ix2 p q) = prodAt v0 v3 p q + v6 (ix1 q) := by
  unfold k2_pay1
  rw [shapeCast_self]
  exact unit_affine_apply dot_S10000x32_S32x2_S10000x2_1_0_0_1_n_n rfl rfl dims_l0 dims_l1 dims_r0 dims_r1 _ _ v6 _ _ p q

variable (V : (c : Dev nD) → (b : Ref sig .tc) → Buf (Elt Ideal) ((c : Thread nD τ).loc b))

/-- The printed index maps, decided over the ten grid points: the feature and result windows move one block of rows
    per point, the weight and bias windows stay on their one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- Row p of grid point t's block is row 10000·t + p of the array. -/
def row (t : Fin cfg2.N) (p : Fin 10000) : Fin 100000 :=
  ⟨t.val * 10000 + p.val, by have h : t.val < 10 := lt_of_lt_of_eq t.isLt N_2; have := p.isLt; omega⟩

/-- The feature window's block at point t, at (p, k): the features' row 10000·t + p. -/
theorem feat_blk (c : Dev nD) (t : Fin cfg2.N) (p : Fin 10000) (k : Fin 32) :
    iblk2 V c 0 t (ix2 p k) = (V c main_v47 : S100000x32.Idx → EReal) (ix2 (row t p) k) := by
  obtain ⟨e0, e1, -, -, -, -, -⟩ := idx_facts t
  show V c main_v47 (((cfg2.win 0).blk t).view.emb (ix2 p k)) = _
  refine congrArg _ (funext fun a => Fin.ext ?_)
  match a with
  | ⟨0, _⟩ => show win2_0.index t (0 : Fin 2) * 10000 + 1 * p.val = t.val * 10000 + p.val; rw [e0]; omega
  | ⟨1, _⟩ => show win2_0.index t (1 : Fin 2) * 32 + 1 * k.val = k.val; rw [e1]; omega

/-- The weight window's one block is the whole weight matrix. -/
theorem weight_blk (c : Dev nD) (t : Fin cfg2.N) (k : Fin 32) (q : Fin 2) :
    iblk2 V c 1 t (ix2 k q) = (V c main_arg8 : S32x2.Idx → EReal) (ix2 k q) := by
  obtain ⟨-, -, e2, e3, -, -, -⟩ := idx_facts t
  show V c main_arg8 (((cfg2.win 1).blk t).view.emb (ix2 k q)) = _
  refine congrArg _ (funext fun a => Fin.ext ?_)
  match a with
  | ⟨0, _⟩ => show win2_1.index t (0 : Fin 2) * 32 + 1 * k.val = k.val; rw [e2]; omega
  | ⟨1, _⟩ => show win2_1.index t (1 : Fin 2) * 2 + 1 * q.val = q.val; rw [e3]; omega

/-- The bias window's one block is the whole bias row. -/
theorem bias_blk (c : Dev nD) (t : Fin cfg2.N) (q : Fin 2) :
    iblk2 V c 2 t (ix1 q) = (V c main_arg9 : S2.Idx → EReal) (ix1 q) := by
  obtain ⟨-, -, -, -, e4, -, -⟩ := idx_facts t
  show V c main_arg9 (((cfg2.win 2).blk t).view.emb (ix1 q)) = _
  refine congrArg _ (funext fun a => Fin.ext ?_)
  match a with
  | ⟨0, _⟩ => show win2_2.index t (0 : Fin 1) * 2 + 1 * q.val = q.val; rw [e4]; omega

/-- WHAT POINT t WRITES BACK is block t of the affine layer of the arrays as the region finds them. -/
theorem flushed_eq (c : Dev nD) (t : Fin cfg2.N) :
    (dat2 V c).flushed 3 t = ((cfg2.win 3).blk t).view.read (Elt Ideal)
      (affine (V c main_v47 : S100000x32.Idx → EReal) (V c main_arg8 : S32x2.Idx → EReal) (V c main_arg9 : S2.Idx → EReal)) := by
  show (cfg2.win 3).cut (grid2.coords t) ((dat2 V c).after 3 t) = _
  rw [after2_3]
  unfold out2_3
  rw [View.canon_unit_zero hz2]
  simp only [View.ld_unit_zero (S := S10000x32) hz2, View.ld_unit_zero (S := S32x2) hz2, View.ld_unit_zero (S := S2) hz1]
  obtain ⟨-, -, -, -, -, e5, e6⟩ := idx_facts t
  funext j
  obtain ⟨p, q, rfl⟩ : ∃ (p : Fin 10000) (q : Fin 2), j = ix2 p q := ⟨j 0, j 1, eq_ix2 j⟩
  show k2_pay1 (iblk2 V c 0 t) (iblk2 V c 1 t) (iblk2 V c 2 t) (ix2 p q)
    = affine (V c main_v47 : S100000x32.Idx → EReal) (V c main_arg8 : S32x2.Idx → EReal) (V c main_arg9 : S2.Idx → EReal)
        (((cfg2.win 3).blk t).view.emb (ix2 p q))
  have hemb : ((cfg2.win 3).blk t).view.emb (ix2 p q) = (ix2 (row t p) q : S100000x2.Idx) := funext fun a => Fin.ext (by
    match a with
    | ⟨0, _⟩ => show win2_3.index t (0 : Fin 2) * 10000 + 1 * p.val = t.val * 10000 + p.val; rw [e5]; omega
    | ⟨1, _⟩ => show win2_3.index t (1 : Fin 2) * 2 + 1 * q.val = q.val; rw [e6]; omega)
  rw [hemb, affine_ix2]
  refine (stored_apply (iblk2 V c 0 t) (iblk2 V c 1 t) (iblk2 V c 2 t) p q).trans ?_
  rw [bias_blk V c t q]
  refine congrArg (· + _) ?_
  exact Finset.sum_congr rfl fun k _ => by rw [feat_blk V c t p k, weight_blk V c t k q]

/-- An index of the result array is in point t's block iff its row is among the block's 10000. -/
theorem mem_blk (t : Fin cfg2.N) (i : S100000x2.Idx) :
    i ∈ ((cfg2.win 3).blk t).view.set ↔ ∀ a : Fin 2, win2_3.index t a * S10000x2.size a ≤ (i a).val ∧ (i a).val < win2_3.index t a * S10000x2.size a + S10000x2.size a := by
  show i ∈ ((View.whole main_v48).slice (win2_3.rect t)).set ↔ _
  rw [View.set_slice_whole, Rect.mem_set_unit]
  exact Iff.rfl

/-- The ten blocks tile the array: row r is in the block of point r / 10000. -/
theorem cover (i : S100000x2.Idx) : ∃ t : Fin cfg2.N, (cfg2.win 3).flush t = true ∧ i ∈ ((cfg2.win 3).blk t).view.set := by
  have hi0 : (i 0).val < 100000 := (i 0).isLt
  have hi1 : (i 1).val < 2 := (i 1).isLt
  let t : Fin cfg2.N := ⟨(i 0).val / 10000, lt_of_lt_of_eq (by omega) N_2.symm⟩
  obtain ⟨-, -, -, -, -, e5, e6⟩ := idx_facts t
  have ht : t.val = (i 0).val / 10000 := rfl
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; rw [e5, ht]; omega
  | ⟨1, _⟩ => show win2_3.index t (1 : Fin 2) * 2 ≤ (i 1).val ∧ (i 1).val < win2_3.index t (1 : Fin 2) * 2 + 2; rw [e6]; omega

/-- THE RESULT ARRAY after the region: the affine layer of the arrays the region was entered with. -/
theorem final (c : Dev nD) :
    (dat2 V c).arrAt 3 cfg2.N
      = affine (V c main_v47 : S100000x32.Idx → EReal) (V c main_arg8 : S32x2.Idx → EReal) (V c main_arg9 : S2.Idx → EReal) :=
  (dat2 V c).arrAt_eq_of_cover 3 _ (fun t _ => flushed_eq V c t) cover

end Cert.KernelIdeal.OutputRegion

end
-- ==== Proof.RefSide.lean ====
/-
  The reference, layer by layer.

  The reference program computes, from the node features x, the edge list and the weights,
      h1 = max ((A x · Wl1 + bl1) + x · Wr1, 0),   h2 = max ((A h1 · Wl2 + bl2) + h1 · Wr2, 0),   out = h2 · Wf + bf,
  where A h is the mean of h over each node's incoming edges (gather the source rows, scatter-add them to the
  targets, multiply by 1 / max (in-degree, 1)).  Here each of the three dense layers is read at an entry — a host
  dot_general is the sum over the contracted axis, a bias broadcast reads its column's entry — and identified with
  the layer arrays of LibAffineLayer; and the aggregation feeding the second layer is the SAME function A that
  feeds the first, applied to h1: the operations are the same, only their buffers differ.  Nothing is rearranged,
  so no finiteness of the inputs is needed.
-/
import proofs.«128696_j71330816852688_1_alg».proof.Defs
import proofs.«128696_j71330816852688_1_alg».proof.Proof.Gen.ReferenceIdeal.Run
import proofs.«128696_j71330816852688_1_alg».proof.Proof.Gen.ReferenceIdeal.Read
import proofs.«128696_j71330816852688_1_alg».proof.Proof.LibAffineLayer

noncomputable section

namespace Cert.ReferenceIdeal.Layers

open Cert.ReferenceIdeal Cert.ReferenceIdeal.Read Idealize.ShloMosaic Idealize.ShloMosaic.ValueIdx Cert.LibAffineLayer
open scoped BigOperators

/-- The mean aggregation feeding the second layer is the first layer's aggregation applied to the hidden features. -/
theorem aggregate_hidden (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v44 (F := Ideal) x0 x1 x2 x3 x4 = val_main_v24 (F := Ideal) (val_main_v31 (F := Ideal) x0 x1 x2 x3 x4) x1 := rfl

/-- The first layer: h1 = max ((A x · Wl1 + bl1) + x · Wr1, 0). -/
theorem hidden1 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v31 (F := Ideal) x0 x1 x2 x3 x4
      = twoBranch (Ideal.ofBits .f32 0x00000000#32) (val_main_v24 (F := Ideal) x0 x1) x0 x2 x4 x3 := by
  funext i
  obtain ⟨p, q, rfl⟩ : ∃ (p : Fin 100000) (q : Fin 64), i = ix2 p q := ⟨i 0, i 1, eq_ix2 i⟩
  rw [twoBranch_ix2, val_main_v31_apply, val_main_v30_apply, val_main_v28_apply, val_main_v25_apply, val_main_v29_apply,
    val_main_v27_apply, val_main_v26_apply, val_main_call0_v0_apply, val_main_call0_cst_apply]
  have el : ∀ k : Fin 64, lidx_main_v25 (ix2 p q) k = ix2 p k := fun k => funext fun a => Fin.ext (by
    match a with
    | ⟨0, _⟩ => rfl
    | ⟨1, _⟩ => rfl)
  have er : ∀ k : Fin 64, ridx_main_v25 (ix2 p q) k = ix2 k q := fun k => funext fun a => Fin.ext (by
    match a with
    | ⟨0, _⟩ => rfl
    | ⟨1, _⟩ => rfl)
  have el' : ∀ k : Fin 64, lidx_main_v29 (ix2 p q) k = ix2 p k := fun k => funext fun a => Fin.ext (by
    match a with
    | ⟨0, _⟩ => rfl
    | ⟨1, _⟩ => rfl)
  have er' : ∀ k : Fin 64, ridx_main_v29 (ix2 p q) k = ix2 k q := fun k => funext fun a => Fin.ext (by
    match a with
    | ⟨0, _⟩ => rfl
    | ⟨1, _⟩ => rfl)
  have eb : idx_main_v26 (idx_main_v27 (ix2 p q)) = ix1 q := funext fun a => Fin.ext (by
    match a with
    | ⟨0, _⟩ => rfl)
  simp only [el, er, el', er', eb]
  rfl

/-- The second layer: h2 = max ((A h1 · Wl2 + bl2) + h1 · Wr2, 0). -/
theorem hidden2 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x32, .f32⟩ : BufTy).Contents (Elt Ideal)) (x6 : (⟨S32, .f32⟩ : BufTy).Contents (Elt Ideal)) (x7 : (⟨S64x32, .f32⟩ : BufTy).Contents (Elt Ideal)) :
    val_main_v51 (F := Ideal) x0 x1 x2 x3 x4 x5 x6 x7
      = twoBranch (Ideal.ofBits .f32 0x00000000#32) (val_main_v44 (F := Ideal) x0 x1 x2 x3 x4)
          (val_main_v31 (F := Ideal) x0 x1 x2 x3 x4) x5 x7 x6 := by
  funext i
  obtain ⟨p, q, rfl⟩ : ∃ (p : Fin 100000) (q : Fin 32), i = ix2 p q := ⟨i 0, i 1, eq_ix2 i⟩
  rw [twoBranch_ix2, val_main_v51_apply, val_main_v50_apply, val_main_v48_apply, val_main_v45_apply, val_main_v49_apply,
    val_main_v47_apply, val_main_v46_apply, val_main_call1_v0_apply, val_main_call1_cst_apply]
  have el : ∀ k : Fin 64, lidx_main_v45 (ix2 p q) k = ix2 p k := fun k => funext fun a => Fin.ext (by
    match a with
    | ⟨0, _⟩ => rfl
    | ⟨1, _⟩ => rfl)
  have er : ∀ k : Fin 64, ridx_main_v45 (ix2 p q) k = ix2 k q := fun k => funext fun a => Fin.ext (by
    match a with
    | ⟨0, _⟩ => rfl
    | ⟨1, _⟩ => rfl)
  have el' : ∀ k : Fin 64, lidx_main_v49 (ix2 p q) k = ix2 p k := fun k => funext fun a => Fin.ext (by
    match a with
    | ⟨0, _⟩ => rfl
    | ⟨1, _⟩ => rfl)
  have er' : ∀ k : Fin 64, ridx_main_v49 (ix2 p q) k = ix2 k q := fun k => funext fun a => Fin.ext (by
    match a with
    | ⟨0, _⟩ => rfl
    | ⟨1, _⟩ => rfl)
  have eb : idx_main_v46 (idx_main_v47 (ix2 p q)) = ix1 q := funext fun a => Fin.ext (by
    match a with
    | ⟨0, _⟩ => rfl)
  simp only [el, er, el', er', eb]
  rfl

/-- The output layer: out = h2 · Wf + bf. -/
theorem output (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x32, .f32⟩ : BufTy).Contents (Elt Ideal)) (x6 : (⟨S32, .f32⟩ : BufTy).Contents (Elt Ideal)) (x7 : (⟨S64x32, .f32⟩ : BufTy).Contents (Elt Ideal)) (x8 : (⟨S32x2, .f32⟩ : BufTy).Contents (Elt Ideal)) (x9 : (⟨S2, .f32⟩ : BufTy).Contents (Elt Ideal)) :
    val_main_v55 (F := Ideal) x0 x1 x2 x3 x4 x5 x6 x7 x8 x9
      = affine (val_main_v51 (F := Ideal) x0 x1 x2 x3 x4 x5 x6 x7) x8 x9 := by
  funext i
  obtain ⟨p, q, rfl⟩ : ∃ (p : Fin 100000) (q : Fin 2), i = ix2 p q := ⟨i 0, i 1, eq_ix2 i⟩
  rw [affine_ix2, val_main_v55_apply, val_main_v52_apply, val_main_v54_apply, val_main_v53_apply]
  have el : ∀ k : Fin 32, lidx_main_v52 (ix2 p q) k = ix2 p k := fun k => funext fun a => Fin.ext (by
    match a with
    | ⟨0, _⟩ => rfl
    | ⟨1, _⟩ => rfl)
  have er : ∀ k : Fin 32, ridx_main_v52 (ix2 p q) k = ix2 k q := fun k => funext fun a => Fin.ext (by
    match a with
    | ⟨0, _⟩ => rfl
    | ⟨1, _⟩ => rfl)
  have eb : idx_main_v53 (idx_main_v54 (ix2 p q)) = ix1 q := funext fun a => Fin.ext (by
    match a with
    | ⟨0, _⟩ => rfl)
  simp only [el, er, eb]
  rfl

/-- The whole network as ONE function of the ten argument arrays: with A h the mean aggregation of h along the edges,
    h1 = max ((A x · Wl1 + bl1) + x · Wr1, 0), h2 = max ((A h1 · Wl2 + bl2) + h1 · Wr2, 0), out = h2 · Wf + bf. -/
def network (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x32, .f32⟩ : BufTy).Contents (Elt Ideal)) (x6 : (⟨S32, .f32⟩ : BufTy).Contents (Elt Ideal)) (x7 : (⟨S64x32, .f32⟩ : BufTy).Contents (Elt Ideal)) (x8 : (⟨S32x2, .f32⟩ : BufTy).Contents (Elt Ideal)) (x9 : (⟨S2, .f32⟩ : BufTy).Contents (Elt Ideal)) : S100000x2.Idx → EReal :=
  affine
    (twoBranch (Ideal.ofBits .f32 0x00000000#32)
      (val_main_v24 (F := Ideal) (twoBranch (Ideal.ofBits .f32 0x00000000#32) (val_main_v24 (F := Ideal) x0 x1) x0 x2 x4 x3) x1)
      (twoBranch (Ideal.ofBits .f32 0x00000000#32) (val_main_v24 (F := Ideal) x0 x1) x0 x2 x4 x3) x5 x7 x6)
    x8 x9

/-- The reference's result is the network. -/
theorem result_eq_network (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x32, .f32⟩ : BufTy).Contents (Elt Ideal)) (x6 : (⟨S32, .f32⟩ : BufTy).Contents (Elt Ideal)) (x7 : (⟨S64x32, .f32⟩ : BufTy).Contents (Elt Ideal)) (x8 : (⟨S32x2, .f32⟩ : BufTy).Contents (Elt Ideal)) (x9 : (⟨S2, .f32⟩ : BufTy).Contents (Elt Ideal)) :
    val_main_v55 (F := Ideal) x0 x1 x2 x3 x4 x5 x6 x7 x8 x9 = network x0 x1 x2 x3 x4 x5 x6 x7 x8 x9 := by
  rw [output, hidden2, aggregate_hidden, hidden1]
  rfl

end Cert.ReferenceIdeal.Layers

end
-- ==== Proof.KernelValue.lean ====
/-
  The kernel program's result as one function of its arguments.

  After the last region the result buffer holds the output layer of the arrays that region was entered with; its
  feature operand is the array the second layer's region left, which is the second layer of the arrays THAT region was
  entered with; and so on back to the launch.  Between the regions run plain host operations, whose results are
  their functions' values: the edge list's two rows, the in-degrees, and the mean aggregation A h of a feature array h
  (gather the source rows, scatter-add them to the target rows, multiply by 1 / max (in-degree, 1)) — once of the node
  features x, once of the first layer's output.  Unwinding these boundaries one by one gives
      result = (max ((A h1 · Wl2 + bl2) + h1 · Wr2, 0)) · Wf + bf,   h1 = max ((A x · Wl1 + bl1) + x · Wr1, 0),
  the network the reference computes.  The host operations are the same operations the reference applies, so their
  composite is the reference's aggregation function itself; no arithmetic law is needed beyond reading each region's
  blocks as rows of one array.
-/
import proofs.«128696_j71330816852688_1_alg».proof.Defs
import proofs.«128696_j71330816852688_1_alg».proof.Proof.KernelIdealFrameP
import proofs.«128696_j71330816852688_1_alg».proof.Proof.FirstRegion
import proofs.«128696_j71330816852688_1_alg».proof.Proof.SecondRegion
import proofs.«128696_j71330816852688_1_alg».proof.Proof.OutputRegion
import proofs.«128696_j71330816852688_1_alg».proof.Proof.RefSide
import Idealize.ShloMosaic.Lib.StableHlo.Run

set_option maxRecDepth 16384

noncomputable section

namespace Cert.KernelIdeal.Network

open Cert.KernelIdeal Cert.KernelIdeal.Gen Cert.KernelIdeal.GenP
open Idealize.ShloMosaic Idealize.ShloMosaic.TcCoe Idealize.ShloMosaic.ValueIdx Idealize.SL.Sem Idealize.ShloMosaic.StableHlo
open Idealize.ShloMosaic.Pipeline (Dat Cfg Window)
open Cert.LibAffineLayer
open Cert.ReferenceIdeal.Read (val_main_v1 val_main_v3 val_main_v24)

variable (m : (ℓ : Loc nD τ sig) → Buf (Elt Ideal) ℓ) (ρ : Dev nD → PrngReg) (c : Dev nD)

/-! ## The first host stretch: what the first layer's region is entered with -/

theorem entry1_x : V1 m ρ c main_arg0 = (m ((c : Thread nD τ).loc main_arg0)) := by
  show StableHlo.after hostOps0 (W0 m ρ c) (Proc.devRef .tc main_arg0) = _
  after_results_simp <;> rfl
theorem entry1_wl : V1 m ρ c main_arg2 = (m ((c : Thread nD τ).loc main_arg2)) := by
  show StableHlo.after hostOps0 (W0 m ρ c) (Proc.devRef .tc main_arg2) = _
  after_results_simp <;> rfl
theorem entry1_b : V1 m ρ c main_arg3 = (m ((c : Thread nD τ).loc main_arg3)) := by
  show StableHlo.after hostOps0 (W0 m ρ c) (Proc.devRef .tc main_arg3) = _
  after_results_simp <;> rfl
theorem entry1_wr : V1 m ρ c main_arg4 = (m ((c : Thread nD τ).loc main_arg4)) := by
  show StableHlo.after hostOps0 (W0 m ρ c) (Proc.devRef .tc main_arg4) = _
  after_results_simp <;> rfl

/-- The source row of the edge list, as the first stretch leaves it. -/
theorem sources : W1 m ρ c (Proc.devRef .tc main_v1) = val_main_v1 (F := Ideal) (m ((c : Thread nD τ).loc main_arg1)) := by
  show StableHlo.after hostOps0 (W0 m ρ c) (Proc.devRef .tc main_v1) = _
  after_results_simp <;> rfl
/-- The target row of the edge list, as the first stretch leaves it. -/
theorem targets : W1 m ρ c (Proc.devRef .tc main_v3) = val_main_v3 (F := Ideal) (m ((c : Thread nD τ).loc main_arg1)) := by
  show StableHlo.after hostOps0 (W0 m ρ c) (Proc.devRef .tc main_v3) = _
  after_results_simp <;> rfl

/-- The first aggregation: the mean over incoming edges of the node features. -/
theorem entry1_aggr : V1 m ρ c main_v24 = val_main_v24 (F := Ideal) (m ((c : Thread nD τ).loc main_arg0)) (m ((c : Thread nD τ).loc main_arg1)) := by
  show StableHlo.after hostOps0 (W0 m ρ c) (Proc.devRef .tc main_v24) = _
  after_results_simp <;> rfl

/-- The first layer's output array, as its region leaves it. -/
theorem hidden1 :
    W2 m ρ c (Proc.devRef .tc main_v25)
      = twoBranch (Ideal.ofBits .f32 0x00000000#32) (val_main_v24 (F := Ideal) (m ((c : Thread nD τ).loc main_arg0)) (m ((c : Thread nD τ).loc main_arg1))) ((m ((c : Thread nD τ).loc main_arg0)) : S100000x64.Idx → EReal) ((m ((c : Thread nD τ).loc main_arg2)) : S64x64.Idx → EReal) ((m ((c : Thread nD τ).loc main_arg4)) : S64x64.Idx → EReal) ((m ((c : Thread nD τ).loc main_arg3)) : S64.Idx → EReal) := by
  refine (W2_arr m ρ c 5).trans ((FirstRegion.final (V1 m ρ) c).trans ?_)
  rw [entry1_aggr, entry1_x, entry1_wl, entry1_b, entry1_wr]

/-! ## The second host stretch: what the second layer's region is entered with -/

theorem entry2_x : V3 m ρ c main_v25 = W2 m ρ c (Proc.devRef .tc main_v25) := by
  show StableHlo.after hostOps1 (W2 m ρ c) (Proc.devRef .tc main_v25) = _
  after_results_simp
theorem entry2_wl : V3 m ρ c main_arg5 = (m ((c : Thread nD τ).loc main_arg5)) :=
  ((W5_of_ne m ρ c main_arg5 (by decide)).trans ((W4_arr m ρ c 2).trans (((dat1 (V3 m ρ) c).arrAt_in 2 rfl _).trans (A_eq1 (V3 m ρ) c 2)))).symm.trans (W5_main_arg5 m ρ c)
theorem entry2_b : V3 m ρ c main_arg6 = (m ((c : Thread nD τ).loc main_arg6)) :=
  ((W5_of_ne m ρ c main_arg6 (by decide)).trans ((W4_arr m ρ c 3).trans (((dat1 (V3 m ρ) c).arrAt_in 3 rfl _).trans (A_eq1 (V3 m ρ) c 3)))).symm.trans (W5_main_arg6 m ρ c)
theorem entry2_wr : V3 m ρ c main_arg7 = (m ((c : Thread nD τ).loc main_arg7)) :=
  ((W5_of_ne m ρ c main_arg7 (by decide)).trans ((W4_arr m ρ c 4).trans (((dat1 (V3 m ρ) c).arrAt_in 4 rfl _).trans (A_eq1 (V3 m ρ) c 4)))).symm.trans (W5_main_arg7 m ρ c)

/-- The second aggregation: the same mean over incoming edges, of the first layer's output. -/
theorem entry2_aggr :
    V3 m ρ c main_v46 = val_main_v24 (F := Ideal) (W2 m ρ c (Proc.devRef .tc main_v25)) (m ((c : Thread nD τ).loc main_arg1)) := by
  have hs : W2 m ρ c (Proc.devRef .tc main_v1) = val_main_v1 (F := Ideal) (m ((c : Thread nD τ).loc main_arg1)) :=
    (W2_of_ne m ρ c main_v1 (by decide)).trans (sources m ρ c)
  have ht : W2 m ρ c (Proc.devRef .tc main_v3) = val_main_v3 (F := Ideal) (m ((c : Thread nD τ).loc main_arg1)) :=
    (W2_of_ne m ρ c main_v3 (by decide)).trans (targets m ρ c)
  show StableHlo.after hostOps1 (W2 m ρ c) (Proc.devRef .tc main_v46) = _
  after_results_simp
  rw [hs, ht]
  rfl

/-- The second layer's output array, as its region leaves it. -/
theorem hidden2 :
    W4 m ρ c (Proc.devRef .tc main_v47)
      = twoBranch (Ideal.ofBits .f32 0x00000000#32) (val_main_v24 (F := Ideal) (W2 m ρ c (Proc.devRef .tc main_v25)) (m ((c : Thread nD τ).loc main_arg1))) (W2 m ρ c (Proc.devRef .tc main_v25))
          ((m ((c : Thread nD τ).loc main_arg5)) : S64x32.Idx → EReal) ((m ((c : Thread nD τ).loc main_arg7)) : S64x32.Idx → EReal) ((m ((c : Thread nD τ).loc main_arg6)) : S32.Idx → EReal) := by
  refine (W4_arr m ρ c 5).trans ((SecondRegion.final (V3 m ρ) c).trans ?_)
  rw [entry2_aggr, entry2_x, entry2_wl, entry2_b, entry2_wr]

/-! ## The output layer's region -/

theorem entry3_w : V4 m ρ c main_arg8 = (m ((c : Thread nD τ).loc main_arg8)) :=
  ((W5_arr m ρ c 1).trans (((dat2 (V4 m ρ) c).arrAt_in 1 rfl _).trans (A_eq2 (V4 m ρ) c 1))).symm.trans (W5_main_arg8 m ρ c)
theorem entry3_b : V4 m ρ c main_arg9 = (m ((c : Thread nD τ).loc main_arg9)) :=
  ((W5_arr m ρ c 2).trans (((dat2 (V4 m ρ) c).arrAt_in 2 rfl _).trans (A_eq2 (V4 m ρ) c 2))).symm.trans (W5_main_arg9 m ρ c)

/-- THE RESULT: after the last region the result buffer holds the network of the launch contents of the arguments. -/
theorem result_eq :
    W5 m ρ c (Proc.devRef .tc main_v48)
      = Cert.ReferenceIdeal.Layers.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W5_arr m ρ c 3).trans ((OutputRegion.final (V4 m ρ) c).trans ?_)
  rw [entry3_w, entry3_b]
  show affine (W4 m ρ c (Proc.devRef .tc main_v47)) _ _ = _
  rw [hidden2, hidden1]
  rfl

end Cert.KernelIdeal.Network

end
-- ==== Proof.lean ====
/-
  A two-layer GraphSAGE network with a linear head, the dense halves tiled over blocks of nodes, against plain jnp.

  With A h the mean of a feature array h over each node's incoming edges (gather the source rows, scatter-add them
  onto the target rows, multiply by 1 / max (in-degree, 1)), both programs compute
      h1 = max ((A x · Wl1 + bl1) + x · Wr1, 0),   h2 = max ((A h1 · Wl2 + bl2) + h1 · Wr2, 0),   out = h2 · Wf + bf.
  The reference does so on whole arrays.  The kernel program computes A on the host exactly as the reference does
  (the in-degrees twice instead of once, by the same operations) and the three dense layers in three regions, each
  over ten blocks of 10000 nodes: a block of rows of the layer depends on the same rows of its feature operands and on
  the whole weight matrices and bias row, the matrix unit's product into a zero accumulator is the sum over the
  contracted axis, and the change to a shorter float format before it is the identity on extended reals.  The ten
  blocks tile the 100000 nodes, so each region leaves the layer of the arrays it was entered with, and unwinding the
  five segments gives the same function of the ten arguments the reference's operations compose to — the sums are
  taken over the same index sets in both programs and nothing is distributed, cancelled or reordered across a sum, so
  the equality holds on all extended reals and the finiteness of the inputs is not used.

  frame: each program's generated frame (the reference's is its run with the result dropped); preserves: the
  idealization rewrote nothing; algebraic: the kernel's named run and the reference's run end at the same network.
-/
import proofs.«128696_j71330816852688_1_alg».proof.Defs
import proofs.«128696_j71330816852688_1_alg».proof.Proof.Gen.Kernel
import proofs.«128696_j71330816852688_1_alg».proof.Proof.Gen.KernelIdeal
import proofs.«128696_j71330816852688_1_alg».proof.Proof.Gen.ReferenceIdeal
import proofs.«128696_j71330816852688_1_alg».proof.Proof.Gen.Pre_finite_inputs
import proofs.«128696_j71330816852688_1_alg».proof.Proof.Gen.ReferenceIdeal.Run
import proofs.«128696_j71330816852688_1_alg».proof.Proof.Gen.ReferenceIdeal.Read
import proofs.«128696_j71330816852688_1_alg».proof.Proof.KernelFrameP
import proofs.«128696_j71330816852688_1_alg».proof.Proof.KernelIdealFrameP
import proofs.«128696_j71330816852688_1_alg».proof.Proof.KernelRun
import proofs.«128696_j71330816852688_1_alg».proof.Proof.KernelValue
import proofs.«128696_j71330816852688_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network of the argument arrays in their result buffer. -/
theorem algebraic : Cert.algebraic_KernelIdeal_ReferenceIdeal := by
  intro m ρ m' ρ' _ hagree
  refine ⟨fun c => Cert.ReferenceIdeal.Layers.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Network.result_eq m ρ c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.Read.val_main_v55_eq, Cert.ReferenceIdeal.Layers.result_eq_network, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
